-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x32 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x32 .f32) (main_arg1 : IVec S2x1600000 32) (main_arg2 : FVec F S1600000 .f32) (main_arg3 : FVec F S32x32 .f32) (main_arg4 : FVec F S32 .f32) (main_arg5 : FVec F S32x32 .f32) (main_arg6 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S32x32 : Shape := ⟨2, ![32, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x32 : Shape := ⟨2, ![10000, 32]⟩
abbrev S1700000x32 : Shape := ⟨2, ![1700000, 32]⟩
abbrev S10000x1 : Shape := ⟨2, ![10000, 1]⟩
abbrev S1x32 : Shape := ⟨2, ![1, 32]⟩

abbrev nBuf : Space → Nat
  | .hbm => 84
  | .vmem => 32
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x32, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x32, .f32⟩
  | .hbm, ⟨78, _⟩ => ⟨S_, .f32⟩
  | .hbm, ⟨79, _⟩ => ⟨S100000x32, .f32⟩
  | .hbm, ⟨80, _⟩ => ⟨S1700000x1, .i32⟩
  | .hbm, ⟨81, _⟩ => ⟨S100000x32, .f32⟩
  | .hbm, ⟨82, _⟩ => ⟨S1x32, .f32⟩
  | .hbm, ⟨83, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x1, .f32⟩
  | .local _ .vmem, ⟨8, _⟩ => ⟨S10000x1, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S1x32, .f32⟩
  | .local _ .vmem, ⟨30, _⟩ => ⟨S10000x32, .f32⟩
  | .local _ .vmem, ⟨31, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S1700000_S1700000x1 : S1700000.ShapeCasts S1700000x1
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x32_S10000x32_1_0_0_1_n_n_wf : DotDims.WF S10000x32 S32x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S1700000x32.size a
  hwx1_0 : ∀ i : grid1.Coords, EltTy.bits .f32 = 32 ∨ (Rect.block (s := S1700000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S1700000x32.size a
  hwx1_2 : ∀ i : grid1.Coords, EltTy.bits .f32 = 32 ∨ (Rect.block (s := S1700000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S1700000x32.size a
  hwx4_0 : ∀ i : grid4.Coords, EltTy.bits .f32 = 32 ∨ (Rect.block (s := S1700000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S1700000x32.size a
  hwx4_2 : ∀ i : grid4.Coords, EltTy.bits .f32 = 32 ∨ (Rect.block (s := S1700000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S32x32 : Shape := ⟨2, ![32, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .hbm, ⟨92, _⟩ => ⟨S_, .f32⟩
  | .hbm, ⟨93, _⟩ => ⟨S100000x32, .f32⟩
  | .hbm, ⟨94, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x32_S100000x32_1_0_0_1_n_n_wf : DotDims.WF S100000x32 S32x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run, with its result named.

  The program is thirteen segments: host operations, then each of the six calls with the host operations between
  them.  The buffer contents at each boundary are a fold from the launch memory: a stretch of host operations
  applies them in order, a call leaves its result array at what its write-backs built and every other buffer as it
  was.  Every weakly fair execution terminates without a fault in a state whose unscoped buffers hold the last
  fold; read at the result buffer that is the result, and read at an argument it walks back to the launch memory.
-/
import proofs.«110876_j70566312673876_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Whole

end
-- ==== Proof.Kept.lean ====
/-
  Buffers no segment writes keep their contents across it.

  A stretch of host operations changes only the buffers its operations write; a call changes only its result array
  (an array it reads through an input window ends as it was entered).  So each array a later segment reads — an
  argument, the edge-index vectors, the column of normalisation factors — holds there what the segment that produced
  it left: its contents at one boundary are its contents at an earlier one.
-/
import proofs.«110876_j70566312673876_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- None of the stretch's operations writes the buffer, so the stretch leaves it as it was. -/
macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_arg0_3_0 (c : Dev nD) : W3 m ρ c (Proc.devRef .tc main_arg0) = m ((c : Thread nD τ).loc main_arg0) :=
  calc W3 m ρ c (Proc.devRef .tc main_arg0)
    _ = W2 m ρ c (Proc.devRef .tc main_arg0) := (by unwritten hostOps0_2)
    _ = W1 m ρ c (Proc.devRef .tc main_arg0) := (by unwritten hostOps0_1)
    _ = W0 m ρ c (Proc.devRef .tc main_arg0) := (by unwritten hostOps0)
    _ = m ((c : Thread nD τ).loc main_arg0) := rfl

theorem keep_arg3_3_0 (c : Dev nD) : W3 m ρ c (Proc.devRef .tc main_arg3) = m ((c : Thread nD τ).loc main_arg3) :=
  calc W3 m ρ c (Proc.devRef .tc main_arg3)
    _ = W2 m ρ c (Proc.devRef .tc main_arg3) := (by unwritten hostOps0_2)
    _ = W1 m ρ c (Proc.devRef .tc main_arg3) := (by unwritten hostOps0_1)
    _ = W0 m ρ c (Proc.devRef .tc main_arg3) := (by unwritten hostOps0)
    _ = m ((c : Thread nD τ).loc main_arg3) := rfl

theorem keep_v5_4_3 (c : Dev nD) : W4 m ρ c (Proc.devRef .tc main_v5) = W3 m ρ c (Proc.devRef .tc main_v5) :=
  calc W4 m ρ c (Proc.devRef .tc main_v5)
    _ = W3 m ρ c (Proc.devRef .tc main_v5) := (W4_of_ne m ρ c main_v5 (by decide))

theorem keep_v32_5_3 (c : Dev nD) : W5 m ρ c (Proc.devRef .tc main_v32) = W3 m ρ c (Proc.devRef .tc main_v32) :=
  calc W5 m ρ c (Proc.devRef .tc main_v32)
    _ = W4 m ρ c (Proc.devRef .tc main_v32) := (by unwritten hostOps1)
    _ = W3 m ρ c (Proc.devRef .tc main_v32) := (W4_of_ne m ρ c main_v32 (by decide))

theorem keep_v6_6_3 (c : Dev nD) : W6 m ρ c (Proc.devRef .tc main_v6) = W3 m ρ c (Proc.devRef .tc main_v6) :=
  calc W6 m ρ c (Proc.devRef .tc main_v6)
    _ = W5 m ρ c (Proc.devRef .tc main_v6) := (W6_of_ne m ρ c main_v6 (by decide))
    _ = W4 m ρ c (Proc.devRef .tc main_v6) := (by unwritten hostOps1)
    _ = W3 m ρ c (Proc.devRef .tc main_v6) := (W4_of_ne m ρ c main_v6 (by decide))

theorem keep_arg4_6_0 (c : Dev nD) : W6 m ρ c (Proc.devRef .tc main_arg4) = m ((c : Thread nD τ).loc main_arg4) :=
  calc W6 m ρ c (Proc.devRef .tc main_arg4)
    _ = W5 m ρ c (Proc.devRef .tc main_arg4) := (W6_of_ne m ρ c main_arg4 (by decide))
    _ = W4 m ρ c (Proc.devRef .tc main_arg4) := (by unwritten hostOps1)
    _ = W3 m ρ c (Proc.devRef .tc main_arg4) := (W4_of_ne m ρ c main_arg4 (by decide))
    _ = W2 m ρ c (Proc.devRef .tc main_arg4) := (by unwritten hostOps0_2)
    _ = W1 m ρ c (Proc.devRef .tc main_arg4) := (by unwritten hostOps0_1)
    _ = W0 m ρ c (Proc.devRef .tc main_arg4) := (by unwritten hostOps0)
    _ = m ((c : Thread nD τ).loc main_arg4) := rfl

theorem keep_arg5_8_0 (c : Dev nD) : W8 m ρ c (Proc.devRef .tc main_arg5) = m ((c : Thread nD τ).loc main_arg5) :=
  calc W8 m ρ c (Proc.devRef .tc main_arg5)
    _ = W7 m ρ c (Proc.devRef .tc main_arg5) := (W8_of_ne m ρ c main_arg5 (by decide))
    _ = W6 m ρ c (Proc.devRef .tc main_arg5) := (by unwritten hostOps2)
    _ = W5 m ρ c (Proc.devRef .tc main_arg5) := (W6_of_ne m ρ c main_arg5 (by decide))
    _ = W4 m ρ c (Proc.devRef .tc main_arg5) := (by unwritten hostOps1)
    _ = W3 m ρ c (Proc.devRef .tc main_arg5) := (W4_of_ne m ρ c main_arg5 (by decide))
    _ = W2 m ρ c (Proc.devRef .tc main_arg5) := (by unwritten hostOps0_2)
    _ = W1 m ρ c (Proc.devRef .tc main_arg5) := (by unwritten hostOps0_1)
    _ = W0 m ρ c (Proc.devRef .tc main_arg5) := (by unwritten hostOps0)
    _ = m ((c : Thread nD τ).loc main_arg5) := rfl

theorem keep_v5_9_4 (c : Dev nD) : W9 m ρ c (Proc.devRef .tc main_v5) = W4 m ρ c (Proc.devRef .tc main_v5) :=
  calc W9 m ρ c (Proc.devRef .tc main_v5)
    _ = W8 m ρ c (Proc.devRef .tc main_v5) := (W9_of_ne m ρ c main_v5 (by decide))
    _ = W7 m ρ c (Proc.devRef .tc main_v5) := (W8_of_ne m ρ c main_v5 (by decide))
    _ = W6 m ρ c (Proc.devRef .tc main_v5) := (by unwritten hostOps2)
    _ = W5 m ρ c (Proc.devRef .tc main_v5) := (W6_of_ne m ρ c main_v5 (by decide))
    _ = W4 m ρ c (Proc.devRef .tc main_v5) := (by unwritten hostOps1)

theorem keep_v32_10_5 (c : Dev nD) : W10 m ρ c (Proc.devRef .tc main_v32) = W5 m ρ c (Proc.devRef .tc main_v32) :=
  calc W10 m ρ c (Proc.devRef .tc main_v32)
    _ = W9 m ρ c (Proc.devRef .tc main_v32) := (by unwritten hostOps4)
    _ = W8 m ρ c (Proc.devRef .tc main_v32) := (W9_of_ne m ρ c main_v32 (by decide))
    _ = W7 m ρ c (Proc.devRef .tc main_v32) := (W8_of_ne m ρ c main_v32 (by decide))
    _ = W6 m ρ c (Proc.devRef .tc main_v32) := (by unwritten hostOps2)
    _ = W5 m ρ c (Proc.devRef .tc main_v32) := ((W6_arr m ρ c 1).trans (((dat1 (V5 m ρ) c).arrAt_in 1 rfl _).trans (A_eq1 (V5 m ρ) c 1)))

theorem keep_v6_11_6 (c : Dev nD) : W11 m ρ c (Proc.devRef .tc main_v6) = W6 m ρ c (Proc.devRef .tc main_v6) :=
  calc W11 m ρ c (Proc.devRef .tc main_v6)
    _ = W10 m ρ c (Proc.devRef .tc main_v6) := (W11_of_ne m ρ c main_v6 (by decide))
    _ = W9 m ρ c (Proc.devRef .tc main_v6) := (by unwritten hostOps4)
    _ = W8 m ρ c (Proc.devRef .tc main_v6) := (W9_of_ne m ρ c main_v6 (by decide))
    _ = W7 m ρ c (Proc.devRef .tc main_v6) := (W8_of_ne m ρ c main_v6 (by decide))
    _ = W6 m ρ c (Proc.devRef .tc main_v6) := (by unwritten hostOps2)

theorem keep_arg6_11_0 (c : Dev nD) : W11 m ρ c (Proc.devRef .tc main_arg6) = m ((c : Thread nD τ).loc main_arg6) :=
  calc W11 m ρ c (Proc.devRef .tc main_arg6)
    _ = W10 m ρ c (Proc.devRef .tc main_arg6) := (W11_of_ne m ρ c main_arg6 (by decide))
    _ = W9 m ρ c (Proc.devRef .tc main_arg6) := (by unwritten hostOps4)
    _ = W8 m ρ c (Proc.devRef .tc main_arg6) := (W9_of_ne m ρ c main_arg6 (by decide))
    _ = W7 m ρ c (Proc.devRef .tc main_arg6) := (W8_of_ne m ρ c main_arg6 (by decide))
    _ = W6 m ρ c (Proc.devRef .tc main_arg6) := (by unwritten hostOps2)
    _ = W5 m ρ c (Proc.devRef .tc main_arg6) := (W6_of_ne m ρ c main_arg6 (by decide))
    _ = W4 m ρ c (Proc.devRef .tc main_arg6) := (by unwritten hostOps1)
    _ = W3 m ρ c (Proc.devRef .tc main_arg6) := (W4_of_ne m ρ c main_arg6 (by decide))
    _ = W2 m ρ c (Proc.devRef .tc main_arg6) := (by unwritten hostOps0_2)
    _ = W1 m ρ c (Proc.devRef .tc main_arg6) := (by unwritten hostOps0_1)
    _ = W0 m ρ c (Proc.devRef .tc main_arg6) := (by unwritten hostOps0)
    _ = m ((c : Thread nD τ).loc main_arg6) := rfl

theorem keep_v5_3_1 (c : Dev nD) : W3 m ρ c (Proc.devRef .tc main_v5) = W1 m ρ c (Proc.devRef .tc main_v5) :=
  calc W3 m ρ c (Proc.devRef .tc main_v5)
    _ = W2 m ρ c (Proc.devRef .tc main_v5) := (by unwritten hostOps0_2)
    _ = W1 m ρ c (Proc.devRef .tc main_v5) := (by unwritten hostOps0_1)

theorem keep_v6_3_1 (c : Dev nD) : W3 m ρ c (Proc.devRef .tc main_v6) = W1 m ρ c (Proc.devRef .tc main_v6) :=
  calc W3 m ρ c (Proc.devRef .tc main_v6)
    _ = W2 m ρ c (Proc.devRef .tc main_v6) := (by unwritten hostOps0_2)
    _ = W1 m ρ c (Proc.devRef .tc main_v6) := (by unwritten hostOps0_1)

theorem keep_v5_2_1 (c : Dev nD) : W2 m ρ c (Proc.devRef .tc main_v5) = W1 m ρ c (Proc.devRef .tc main_v5) :=
  calc W2 m ρ c (Proc.devRef .tc main_v5)
    _ = W1 m ρ c (Proc.devRef .tc main_v5) := (by unwritten hostOps0_1)

theorem keep_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := (by unwritten hostOps0_1)

theorem keep_v8_2_1 (c : Dev nD) : W2 m ρ c (Proc.devRef .tc main_v8) = W1 m ρ c (Proc.devRef .tc main_v8) :=
  calc W2 m ρ c (Proc.devRef .tc main_v8)
    _ = W1 m ρ c (Proc.devRef .tc main_v8) := (by unwritten hostOps0_1)

end Cert.KernelIdeal.Kept

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«110876_j70566312673876_2_alg».proof.Proof.LibDense
import proofs.«110876_j70566312673876_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.RefLayers.lean ====
/-
  The reference's layers, each as one function of the stage before it.

  The reference computes, twice over, a dense transform (a dot product with a 32 × 32 weight), a gather of its rows
  along the edges, a scaling of each gathered row by the edge's normalisation factor (broadcast to a column, then
  along the row), a scatter-add onto the destination rows, and a bias (broadcast to a row, then to every row) followed
  by the maximum with zero.  On the extended reals the dot product is the matrix product, the scaling is
  `scaleRows` by the factor laid out as a column, and the bias step is `reluBias` with the bias laid out as a row.
  The gather and the scatter-add are kept as they are.
-/
import proofs.«110876_j70566312673876_2_alg».proof.Proof.Gen.ReferenceIdeal.Read
import proofs.«110876_j70566312673876_2_alg».proof.Proof.LibRowScale

noncomputable section

namespace Cert.ReferenceIdeal.Layers

open Cert.ReferenceIdeal Cert.ReferenceIdeal.Read Idealize.ShloMosaic Idealize.ShloMosaic.ValueIdx
open Cert.Dense Cert.RowScale
open Cert.ReferenceIdeal.Facts₀ Cert.ReferenceIdeal.Facts

/-! ## The normalisation -/

/-- The inverse square root of the positive degrees, zero elsewhere: a select on the comparison. -/
theorem dinv_eq (x1 : (⟨S2x1600000, .i32⟩ : BufTy).Contents (Elt Ideal)) (x2 : (⟨S1600000, .f32⟩ : BufTy).Contents (Elt Ideal)) :
    val_main_v15 (F := Ideal) x1 x2
      = select (val_main_v13 (F := Ideal) x1 x2) (val_main_v14 (F := Ideal) x1 x2)
          (broadcastInDim S100000 ![] bcast_S_S100000 (id (val_main_cst_2 (F := Ideal)))) := rfl

/-- The factor of every edge from the per-node `dinv`, the edges' endpoints and their weights: `dinv` gathered at the
    source (an index below zero wrapped by the node count), times the weight, times `dinv` gathered at the destination. -/
def factor (dinv : FVec Ideal S100000 .f32) (src dst : IVec S1700000 32) (w : FVec Ideal S1700000 .f32) :
    FVec Ideal S1700000 .f32 :=
  mulf (F := Ideal)
    (mulf (F := Ideal)
      (Host.gather gather_S100000_S1700000x1_S1700000_n_0_n_n_0_1_1 dinv
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      w)
    (Host.gather gather_S100000_S1700000x1_S1700000_n_0_n_n_0_1_1 dinv
      (broadcastInDim S1700000x1 ![0] bcast_S1700000_S1700000x1_0
        (select (cmpi .slt dst (broadcastInDim S1700000 ![] bcast_S_S1700000 (constantI S_ 32 0#32)))
          (addi dst (broadcastInDim S1700000 ![] bcast_S_S1700000 (constantI S_ 32 100000#32))) dst)))

theorem factor_eq (x1 : (⟨S2x1600000, .i32⟩ : BufTy).Contents (Elt Ideal)) (x2 : (⟨S1600000, .f32⟩ : BufTy).Contents (Elt Ideal)) :
    val_main_v31 (F := Ideal) x1 x2
      = factor (val_main_v15 (F := Ideal) x1 x2) (val_main_v5 (F := Ideal) x1) (val_main_v6 (F := Ideal) x1) (val_main_v8 (F := Ideal) x2) := by
  unfold val_main_v31 val_main_v30 val_main_v29 val_main_v28 val_main_v27 val_main_v26 val_main_v25 val_main_v24
    val_main_c_5 val_main_c_4 val_main_v23 val_main_v22 val_main_v21 val_main_v20 val_main_v19 val_main_v18 val_main_v17
    val_main_v16 val_main_c_3 val_main_c factor
  rfl

/-! ## The layers -/

/-- The first dense transform is the matrix product. -/
theorem dense1 (x0 : (⟨S100000x32, .f32⟩ : BufTy).Contents (Elt Ideal)) (x3 : (⟨S32x32, .f32⟩ : BufTy).Contents (Elt Ideal)) : val_main_v32 (F := Ideal) x0 x3 = mm x0 x3 :=
  hostDot_eq_mm dot_S100000x32_S32x32_S100000x32_1_0_0_1_n_n rfl rfl rfl rfl rfl rfl none x0 x3

/-- The first gathered messages, scaled edge by edge. -/
theorem scaled1 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S32x32, .f32⟩ : BufTy).Contents (Elt Ideal)) :
    val_main_v42 (F := Ideal) x0 x1 x2 x3 = scaleRows (val_main_v39 (F := Ideal) x0 x1 x3) (col (val_main_v31 (F := Ideal) x1 x2)) :=
  hostScaleRows (val_main_v39 (F := Ideal) x0 x1 x3) (val_main_v31 (F := Ideal) x1 x2) _ _

/-- The first layer's output: the aggregate plus the bias, rectified. -/
theorem out1 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S32x32, .f32⟩ : BufTy).Contents (Elt Ideal)) (x4 : (⟨S32, .f32⟩ : BufTy).Contents (Elt Ideal)) :
    val_main_v49 (F := Ideal) x0 x1 x2 x3 x4 = reluBias (val_main_v45 (F := Ideal) x0 x1 x2 x3) (row x4) :=
  hostReluBias (val_main_v45 (F := Ideal) x0 x1 x2 x3) x4 _ _ _

/-- The second dense transform is the matrix product. -/
theorem dense2 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) :
    val_main_v50 (F := Ideal) x0 x1 x2 x3 x4 x5 = mm (val_main_v49 (F := Ideal) x0 x1 x2 x3 x4) x5 :=
  hostDot_eq_mm dot_S100000x32_S32x32_S100000x32_1_0_0_1_n_n rfl rfl rfl rfl rfl rfl none (val_main_v49 (F := Ideal) x0 x1 x2 x3 x4) x5

/-- The second gathered messages, scaled edge by edge. -/
theorem scaled2 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) :
    val_main_v60 (F := Ideal) x0 x1 x2 x3 x4 x5 = scaleRows (val_main_v57 (F := Ideal) x0 x1 x2 x3 x4 x5) (col (val_main_v31 (F := Ideal) x1 x2)) :=
  hostScaleRows (val_main_v57 (F := Ideal) x0 x1 x2 x3 x4 x5) (val_main_v31 (F := Ideal) x1 x2) _ _

/-- The second layer's output, the program's result. -/
theorem out2 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v67 (F := Ideal) x0 x1 x2 x3 x4 x5 x6 = reluBias (val_main_v63 (F := Ideal) x0 x1 x2 x3 x4 x5) (row x6) :=
  hostReluBias (val_main_v63 (F := Ideal) x0 x1 x2 x3 x4 x5) x6 _ _ _

end Cert.ReferenceIdeal.Layers

end
-- ==== Proof.Norm.lean ====
/-
  The graph's normalisation, as the idealized kernel's first host operations leave it.

  Before its first call the kernel builds — with the reference's own operations, in the reference's order — the
  source and destination index of every edge and self-loop (the edge list's two rows, each followed by 0 … N-1), the
  weights (the edge weights followed by N twos), the degrees (the weights scatter-added onto the destinations), the
  inverse square roots of the positive degrees, and the factor `dinv[src] · w · dinv[dst]` of every edge; the kernel
  then reshapes the factors to a column.  Read off the three stretches of host operations one stretch at a time.
-/
import proofs.«110876_j70566312673876_2_alg».proof.Proof.Kept
import proofs.«110876_j70566312673876_2_alg».proof.Proof.RefLayers
import Idealize.ShloMosaic.Lib.StableHlo.Run

set_option maxRecDepth 16384

noncomputable section

namespace Cert.KernelIdeal.Norm

open Cert.KernelIdeal Cert.KernelIdeal.Gen Cert.KernelIdeal.Kept
open Idealize.ShloMosaic Idealize.ShloMosaic.TcCoe Idealize.ShloMosaic.StableHlo Idealize.SL.Sem
open Cert.Dense Cert.RowScale
open Cert.ReferenceIdeal.Read

variable (m : (ℓ : Loc nD τ sig) → Buf (Elt Ideal) ℓ) (ρ : Dev nD → PrngReg) (c : Dev nD)

/-! ## After the first stretch -/

theorem src1 : W1 m ρ c (Proc.devRef .tc main_v5) = val_main_v5 (F := Ideal) (m ((c : Thread nD τ).loc main_arg1)) := by
  show StableHlo.after hostOps0 (W0 m ρ c) (Proc.devRef .tc main_v5) = _
  after_results_simp
  rfl

theorem dst1 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

theorem weights1 : W1 m ρ c (Proc.devRef .tc main_v8) = val_main_v8 (F := Ideal) (m ((c : Thread nD τ).loc main_arg2)) := by
  show StableHlo.after hostOps0 (W0 m ρ c) (Proc.devRef .tc main_v8) = _
  after_results_simp
  rfl

theorem positive1 : W1 m ρ c (Proc.devRef .tc main_v13) = val_main_v13 (F := Ideal) (m ((c : Thread nD τ).loc main_arg1)) (m ((c : Thread nD τ).loc main_arg2)) := by
  show StableHlo.after hostOps0 (W0 m ρ c) (Proc.devRef .tc main_v13) = _
  after_results_simp
  rfl

theorem rsqrt1 : W1 m ρ c (Proc.devRef .tc main_v14) = val_main_v14 (F := Ideal) (m ((c : Thread nD τ).loc main_arg1)) (m ((c : Thread nD τ).loc main_arg2)) := by
  show StableHlo.after hostOps0 (W0 m ρ c) (Proc.devRef .tc main_v14) = _
  after_results_simp
  rfl

theorem zero1 : W1 m ρ c (Proc.devRef .tc main_cst_2) = val_main_cst_2 (F := Ideal) := by
  show StableHlo.after hostOps0 (W0 m ρ c) (Proc.devRef .tc main_cst_2) = _
  after_results_simp
  rfl

/-! ## After the second stretch: the inverse square root of the positive degrees, zero elsewhere -/

/-- The second stretch, from any contents: a select of its three inputs. -/
theorem select_of (Vv : Valuation τ sig (Elt Ideal)) (p : (⟨S100000, .i1⟩ : BufTy).Contents (Elt Ideal))
    (r : (⟨S100000, .f32⟩ : BufTy).Contents (Elt Ideal)) (z : (⟨S_, .f32⟩ : BufTy).Contents (Elt Ideal))
    (h13 : Vv (Proc.devRef .tc main_v13) = p) (h14 : Vv (Proc.devRef .tc main_v14) = r)
    (h0 : Vv (Proc.devRef .tc main_cst_2) = z) :
    StableHlo.after hostOps0_1 Vv (Proc.devRef .tc main_v15) = select p r (broadcastInDim S100000 ![] bcast_S_S100000 (id z)) := by
  after_results
  rw [h13, h14, h0]
  rfl

theorem dinv2 : W2 m ρ c (Proc.devRef .tc main_v15) = val_main_v15 (F := Ideal) (m ((c : Thread nD τ).loc main_arg1)) (m ((c : Thread nD τ).loc main_arg2)) :=
  (select_of (W1 m ρ c) _ _ _ (positive1 m ρ c) (rsqrt1 m ρ c) (zero1 m ρ c)).trans
    (Cert.ReferenceIdeal.Layers.dinv_eq (m ((c : Thread nD τ).loc main_arg1)) (m ((c : Thread nD τ).loc main_arg2))).symm

/-! ## After the third stretch -/

theorem src3 : W3 m ρ c (Proc.devRef .tc main_v5) = val_main_v5 (F := Ideal) (m ((c : Thread nD τ).loc main_arg1)) :=
  (keep_v5_3_1 m ρ c).trans (src1 m ρ c)

theorem dst3 : W3 m ρ c (Proc.devRef .tc main_v6) = val_main_v6 (F := Ideal) (m ((c : Thread nD τ).loc main_arg1)) :=
  (keep_v6_3_1 m ρ c).trans (dst1 m ρ c)

/-- The third stretch, from any contents: the factors of its four inputs, reshaped to a column. -/
theorem factor_of (Vv : Valuation τ sig (Elt Ideal)) (dinv : (⟨S100000, .f32⟩ : BufTy).Contents (Elt Ideal))
    (src dst : (⟨S1700000, .i32⟩ : BufTy).Contents (Elt Ideal)) (w : (⟨S1700000, .f32⟩ : BufTy).Contents (Elt Ideal))
    (h15 : Vv (Proc.devRef .tc main_v15) = dinv) (h5 : Vv (Proc.devRef .tc main_v5) = src)
    (h6 : Vv (Proc.devRef .tc main_v6) = dst) (h8 : Vv (Proc.devRef .tc main_v8) = w) :
    StableHlo.after hostOps0_2 Vv (Proc.devRef .tc main_v32) = col (Cert.ReferenceIdeal.Layers.factor dinv src dst w) := by
  after_results_simp
  rw [h15, h5, h6, h8]
  exact shapeCast_col (M := 1700000) _ _

/-- The normalisation factor of every edge and self-loop, laid out as a column. -/
theorem norm3 : W3 m ρ c (Proc.devRef .tc main_v32) = col (val_main_v31 (F := Ideal) (m ((c : Thread nD τ).loc main_arg1)) (m ((c : Thread nD τ).loc main_arg2))) :=
  (factor_of (W2 m ρ c) _ _ _ _ (dinv2 m ρ c) ((keep_v5_2_1 m ρ c).trans (src1 m ρ c)) ((keep_v6_2_1 m ρ c).trans (dst1 m ρ c))
    ((keep_v8_2_1 m ρ c).trans (weights1 m ρ c))).trans
    (congrArg col (Cert.ReferenceIdeal.Layers.factor_eq (m ((c : Thread nD τ).loc main_arg1)) (m ((c : Thread nD τ).loc main_arg2))).symm)

end Cert.KernelIdeal.Norm

end
-- ==== Proof.Call0.lean ====
/-
  Call 0 of the program, as one function of the arrays it finds.

  The call walks 10 points; point `t` reads rows `10000 t … 10000 t + 9999` of its first array and the whole of its second array, and writes
  the same rows of its result.  What the body stores is the matrix product of the first array with the second (a 32 × 32 matrix held whole at every point),
  of the block it loaded.  That layer is row-local, so block `t` of the whole-array function is what point `t` wrote;
  the 10 blocks tile the 100000 rows, so after the call the result array is the whole-array function.
  Stated for any contents `V` of the buffers at the call's entry.
-/
import proofs.«110876_j70566312673876_2_alg».proof.Proof.Gen.KernelIdeal.Frame
import proofs.«110876_j70566312673876_2_alg».proof.Proof.LibRowScale
import Idealize.ShloMosaic.Lib.Pipeline.Value

set_option maxRecDepth 16384

noncomputable section

namespace Cert.KernelIdeal.Closed

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.RowScale

variable (V : (c : Dev nD) → (b : Ref sig .tc) → Buf (Elt Ideal) ((c : Thread nD τ).loc b))

theorem zero2_0 : (![0, 0] : Fin 2 → Nat) = fun _ => 0 := funext fun a => by fin_cases a <;> rfl

/-- The body's stored value: the formats' change is the identity on the extended reals, and a product into a zero
    accumulator is the matrix product. -/
theorem pay0 (x0 : Vec Ideal S10000x32 .f32) (x1 : Vec Ideal S32x32 .f32) : k0_pay1 (F := Ideal) x0 x1 = mm x0 x1 :=
  matmul_zero_eq_mm dot_S10000x32_S32x32_S10000x32_1_0_0_1_n_n rfl rfl rfl rfl rfl rfl none x0 x1

/-- The printed index maps over the grid: the row-blocked windows sit at block row `t`, column block 0; the second
    window stays at its one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array function. -/
theorem flushed0 (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero zero2_0]
  simp only [View.ld_unit_zero (S := S10000x32) zero2_0, View.ld_unit_zero (S := S32x32) zero2_0]
  rw [pay0]
  obtain ⟨e0, e1, e2, e3, e4, e5⟩ := index0 t
  funext j
  show mm (iblk0 V c 0 t) (iblk0 V c 1 t) j = mm (V c main_arg0) (V c main_arg3) (((cfg0.win 2).blk t).view.emb j)
  refine mm_at (V c main_arg0) (V c main_arg3) (iblk0 V c 0 t) (iblk0 V c 1 t) j (((cfg0.win 2).blk t).view.emb j) (fun k => ?_) (fun k => ?_)
  · show V c main_arg0 (((cfg0.win 0).blk t).view.emb (ix2 (c0 j) k)) = V c main_arg0 (ix2 (c0 (((cfg0.win 2).blk t).view.emb j)) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  · show V c main_arg3 (((cfg0.win 1).blk t).view.emb (ix2 k (c1 j))) = V c main_arg3 (ix2 k (c1 (((cfg0.win 2).blk t).view.emb j)))
    refine congrArg _ (funext fun a => Fin.ext ?_)
    match a with
    | ⟨0, _⟩ => show win0_1.index t (0 : Fin 2) * 32 + 1 * k.val = k.val; omega
    | ⟨1, _⟩ => show win0_1.index t (1 : Fin 2) * 32 + 1 * (j 1).val = win0_2.index t (1 : Fin 2) * 32 + 1 * (j 1).val; omega

/-- An index of the result array is in point `t`'s block iff each coordinate is in the block's range on its axis. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v33).slice (win0_2.rect t)).set ↔ _
  rw [View.set_slice_whole, Rect.mem_set_unit]
  exact Iff.rfl

/-- Row `p` is in the block of point `p / 10000`. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 10000 < grid0.N := by rw [N_0]; omega
  refine ⟨⟨(i 0).val / 10000, hN⟩, flush0_2 _, ?_⟩
  obtain ⟨e0, e1, e2, e3, e4, e5⟩ := index0 ⟨(i 0).val / 10000, hN⟩
  rw [mem_blk0]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hN⟩ (1 : Fin 2) * 32 ≤ (i 1).val ∧ (i 1).val < win0_2.index ⟨(i 0).val / 10000, hN⟩ (1 : Fin 2) * 32 + 32
    rw [e5]
    omega

/-- After the call the result array is the whole-array function of the arrays the call found. -/
theorem final0 (c : Dev nD) : (dat0 V c).arrAt 2 cfg0.N = mm (V c main_arg0) (V c main_arg3) :=
  (dat0 V c).arrAt_eq_of_cover 2 _ (fun t _ => flushed0 V c t) (cover0)

end Cert.KernelIdeal.Closed

end
-- ==== Proof.Call1.lean ====
/-
  Call 1 of the program, as one function of the arrays it finds.

  The call walks 170 points; point `t` reads rows `10000 t … 10000 t + 9999` of its first array and of its one-column second array, and writes
  the same rows of its result.  What the body stores is the first array with every row scaled by the factor the one-column second array holds for that row,
  of the block it loaded.  That layer is row-local, so block `t` of the whole-array function is what point `t` wrote;
  the 170 blocks tile the 1700000 rows, so after the call the result array is the whole-array function.
  Stated for any contents `V` of the buffers at the call's entry.
-/
import proofs.«110876_j70566312673876_2_alg».proof.Proof.Gen.KernelIdeal.Frame
import proofs.«110876_j70566312673876_2_alg».proof.Proof.LibRowScale
import Idealize.ShloMosaic.Lib.Pipeline.Value

set_option maxRecDepth 16384

noncomputable section

namespace Cert.KernelIdeal.Closed

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.RowScale

variable (V : (c : Dev nD) → (b : Ref sig .tc) → Buf (Elt Ideal) ((c : Thread nD τ).loc b))

theorem zero2_1 : (![0, 0] : Fin 2 → Nat) = fun _ => 0 := funext fun a => by fin_cases a <;> rfl

/-- The body's stored value: the casts are to the same shapes, the column is broadcast along the rows and multiplied in. -/
theorem pay1 (x0 : Vec Ideal S10000x32 .f32) (x1 : Vec Ideal S10000x1 .f32) : k1_pay1 (F := Ideal) x0 x1 = scaleRows x0 x1 := by
  unfold k1_pay1
  rw [shapeCast_self, shapeCast_self]
  exact vecScaleRows x0 x1 broadcasts_S10000x1_S10000x32

/-- The printed index maps over the grid: the row-blocked windows sit at block row `t`, column block 0. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function. -/
theorem flushed1 (c : Dev nD) (t : Fin cfg1.N) :
    (dat1 V c).flushed 2 t = ((cfg1.win 2).blk t).view.read (Elt Ideal) (scaleRows (V c main_v40) (V c main_v32)) := by
  show (cfg1.win 2).cut (grid1.coords t) ((dat1 V c).after 2 t) = _
  rw [after1_2]
  unfold out1_2
  rw [View.canon_unit_zero zero2_1]
  simp only [View.ld_unit_zero (S := S10000x32) zero2_1, View.ld_unit_zero (S := S10000x1) zero2_1]
  rw [pay1]
  obtain ⟨e0, e1, e2, e3, e4, e5⟩ := index1 t
  funext j
  show scaleRows (iblk1 V c 0 t) (iblk1 V c 1 t) j = scaleRows (V c main_v40) (V c main_v32) (((cfg1.win 2).blk t).view.emb j)
  refine scaleRows_at (V c main_v40) (V c main_v32) (iblk1 V c 0 t) (iblk1 V c 1 t) j (((cfg1.win 2).blk t).view.emb j) ?_ ?_
  · show V c main_v40 (((cfg1.win 0).blk t).view.emb j) = V c main_v40 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * (j 1).val = win1_2.index t (1 : Fin 2) * 32 + 1 * (j 1).val; omega
  · show V c main_v32 (((cfg1.win 1).blk t).view.emb (ix2 (c0 j) (0 : Fin 1))) = V c main_v32 (ix2 (c0 (((cfg1.win 2).blk t).view.emb j)) (0 : Fin 1))
    refine congrArg _ (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An index of the result array is in point `t`'s block iff each coordinate is in the block's range on its axis. -/
theorem mem_blk1 (t : Fin cfg1.N) (i : S1700000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v41).slice (win1_2.rect t)).set ↔ _
  rw [View.set_slice_whole, Rect.mem_set_unit]
  exact Iff.rfl

/-- Row `p` is in the block of point `p / 10000`. -/
theorem cover1 (i : S1700000x32.Idx) : ∃ t : Fin cfg1.N, (cfg1.win 2).flush t = true ∧ i ∈ ((cfg1.win 2).blk t).view.set := by
  have hi0 : (i 0).val < 1700000 := (i 0).isLt
  have hi1 : (i 1).val < 32 := (i 1).isLt
  have hN : (i 0).val / 10000 < grid1.N := by rw [N_1]; omega
  refine ⟨⟨(i 0).val / 10000, hN⟩, flush1_2 _, ?_⟩
  obtain ⟨e0, e1, e2, e3, e4, e5⟩ := index1 ⟨(i 0).val / 10000, hN⟩
  rw [mem_blk1]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hN⟩ (1 : Fin 2) * 32 ≤ (i 1).val ∧ (i 1).val < win1_2.index ⟨(i 0).val / 10000, hN⟩ (1 : Fin 2) * 32 + 32
    rw [e5]
    omega

/-- After the call the result array is the whole-array function of the arrays the call found. -/
theorem final1 (c : Dev nD) : (dat1 V c).arrAt 2 cfg1.N = scaleRows (V c main_v40) (V c main_v32) :=
  (dat1 V c).arrAt_eq_of_cover 2 _ (fun t _ => flushed1 V c t) (cover1)

end Cert.KernelIdeal.Closed

end
-- ==== Proof.Call2.lean ====
/-
  Call 2 of the program, as one function of the arrays it finds.

  The call walks 10 points; point `t` reads rows `10000 t … 10000 t + 9999` of its first array and the whole of its second array, and writes
  the same rows of its result.  What the body stores is the first array plus the one-row second array on every row, rectified,
  of the block it loaded.  That layer is row-local, so block `t` of the whole-array function is what point `t` wrote;
  the 10 blocks tile the 100000 rows, so after the call the result array is the whole-array function.
  Stated for any contents `V` of the buffers at the call's entry.
-/
import proofs.«110876_j70566312673876_2_alg».proof.Proof.Gen.KernelIdeal.Frame
import proofs.«110876_j70566312673876_2_alg».proof.Proof.LibRowScale
import Idealize.ShloMosaic.Lib.Pipeline.Value

set_option maxRecDepth 16384

noncomputable section

namespace Cert.KernelIdeal.Closed

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.RowScale

variable (V : (c : Dev nD) → (b : Ref sig .tc) → Buf (Elt Ideal) ((c : Thread nD τ).loc b))

theorem zero2_2 : (![0, 0] : Fin 2 → Nat) = fun _ => 0 := funext fun a => by fin_cases a <;> rfl

/-- The body's stored value: the casts are to the same shapes, the row is broadcast to every row, added, and the
    maximum with zero taken. -/
theorem pay2 (x0 : Vec Ideal S10000x32 .f32) (x1 : Vec Ideal S1x32 .f32) : k2_pay1 (F := Ideal) x0 x1 = reluBias x0 x1 := by
  unfold k2_pay1
  rw [shapeCast_self, shapeCast_self]
  exact vecReluBias x0 x1 broadcasts_S1x32_S10000x32

/-- The printed index maps over the grid: the row-blocked windows sit at block row `t`, column block 0; the second
    window stays at its one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array function. -/
theorem flushed2 (c : Dev nD) (t : Fin cfg2.N) :
    (dat2 V c).flushed 2 t = ((cfg2.win 2).blk t).view.read (Elt Ideal) (reluBias (V c main_v44) (V c main_v45)) := by
  show (cfg2.win 2).cut (grid2.coords t) ((dat2 V c).after 2 t) = _
  rw [after2_2]
  unfold out2_2
  rw [View.canon_unit_zero zero2_2]
  simp only [View.ld_unit_zero (S := S10000x32) zero2_2, View.ld_unit_zero (S := S1x32) zero2_2]
  rw [pay2]
  obtain ⟨e0, e1, e2, e3, e4, e5⟩ := index2 t
  funext j
  show reluBias (iblk2 V c 0 t) (iblk2 V c 1 t) j = reluBias (V c main_v44) (V c main_v45) (((cfg2.win 2).blk t).view.emb j)
  refine reluBias_at (V c main_v44) (V c main_v45) (iblk2 V c 0 t) (iblk2 V c 1 t) j (((cfg2.win 2).blk t).view.emb j) ?_ ?_
  · show V c main_v44 (((cfg2.win 0).blk t).view.emb j) = V c main_v44 (((cfg2.win 2).blk t).view.emb j)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 32 + 1 * (j 1).val = win2_2.index t (1 : Fin 2) * 32 + 1 * (j 1).val; omega
  · show V c main_v45 (((cfg2.win 1).blk t).view.emb (ix2 (0 : Fin 1) (c1 j))) = V c main_v45 (ix2 (0 : Fin 1) (c1 (((cfg2.win 2).blk t).view.emb j)))
    refine congrArg _ (funext fun a => Fin.ext ?_)
    match a with
    | ⟨0, _⟩ => show win2_1.index t (0 : Fin 2) * 1 + 1 * 0 = 0; omega
    | ⟨1, _⟩ => show win2_1.index t (1 : Fin 2) * 32 + 1 * (j 1).val = win2_2.index t (1 : Fin 2) * 32 + 1 * (j 1).val; omega

/-- An index of the result array is in point `t`'s block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- Row `p` is in the block of point `p / 10000`. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : (i 0).val / 10000 < grid2.N := by rw [N_2]; omega
  refine ⟨⟨(i 0).val / 10000, hN⟩, flush2_2 _, ?_⟩
  obtain ⟨e0, e1, e2, e3, e4, e5⟩ := index2 ⟨(i 0).val / 10000, hN⟩
  rw [mem_blk2]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hN⟩ (1 : Fin 2) * 32 ≤ (i 1).val ∧ (i 1).val < win2_2.index ⟨(i 0).val / 10000, hN⟩ (1 : Fin 2) * 32 + 32
    rw [e5]
    omega

/-- After the call the result array is the whole-array function of the arrays the call found. -/
theorem final2 (c : Dev nD) : (dat2 V c).arrAt 2 cfg2.N = reluBias (V c main_v44) (V c main_v45) :=
  (dat2 V c).arrAt_eq_of_cover 2 _ (fun t _ => flushed2 V c t) (cover2)

end Cert.KernelIdeal.Closed

end
-- ==== Proof.Call3.lean ====
/-
  Call 3 of the program, as one function of the arrays it finds.

  The call walks 10 points; point `t` reads rows `10000 t … 10000 t + 9999` of its first array and the whole of its second array, and writes
  the same rows of its result.  What the body stores is the matrix product of the first array with the second (a 32 × 32 matrix held whole at every point),
  of the block it loaded.  That layer is row-local, so block `t` of the whole-array function is what point `t` wrote;
  the 10 blocks tile the 100000 rows, so after the call the result array is the whole-array function.
  Stated for any contents `V` of the buffers at the call's entry.
-/
import proofs.«110876_j70566312673876_2_alg».proof.Proof.Gen.KernelIdeal.Frame
import proofs.«110876_j70566312673876_2_alg».proof.Proof.LibRowScale
import Idealize.ShloMosaic.Lib.Pipeline.Value

set_option maxRecDepth 16384

noncomputable section

namespace Cert.KernelIdeal.Closed

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.RowScale

variable (V : (c : Dev nD) → (b : Ref sig .tc) → Buf (Elt Ideal) ((c : Thread nD τ).loc b))

theorem zero2_3 : (![0, 0] : Fin 2 → Nat) = fun _ => 0 := funext fun a => by fin_cases a <;> rfl

/-- The body's stored value: a cast to the same shape and the formats' change are the identity on the extended reals,
    and a product into a zero accumulator is the matrix product. -/
theorem pay3 (x0 : Vec Ideal S10000x32 .f32) (x1 : Vec Ideal S32x32 .f32) : k3_pay1 (F := Ideal) x0 x1 = mm x0 x1 := by
  unfold k3_pay1
  rw [shapeCast_self]
  exact matmul_zero_eq_mm dot_S10000x32_S32x32_S10000x32_1_0_0_1_n_n rfl rfl rfl rfl rfl rfl none x0 x1

/-- The printed index maps over the grid: the row-blocked windows sit at block row `t`, column block 0; the second
    window stays at its one block. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function. -/
theorem flushed3 (c : Dev nD) (t : Fin cfg3.N) :
    (dat3 V c).flushed 2 t = ((cfg3.win 2).blk t).view.read (Elt Ideal) (mm (V c main_v46) (V c main_arg5)) := by
  show (cfg3.win 2).cut (grid3.coords t) ((dat3 V c).after 2 t) = _
  rw [after3_2]
  unfold out3_2
  rw [View.canon_unit_zero zero2_3]
  simp only [View.ld_unit_zero (S := S10000x32) zero2_3, View.ld_unit_zero (S := S32x32) zero2_3]
  rw [pay3]
  obtain ⟨e0, e1, e2, e3, e4, e5⟩ := index3 t
  funext j
  show mm (iblk3 V c 0 t) (iblk3 V c 1 t) j = mm (V c main_v46) (V c main_arg5) (((cfg3.win 2).blk t).view.emb j)
  refine mm_at (V c main_v46) (V c main_arg5) (iblk3 V c 0 t) (iblk3 V c 1 t) j (((cfg3.win 2).blk t).view.emb j) (fun k => ?_) (fun k => ?_)
  · show V c main_v46 (((cfg3.win 0).blk t).view.emb (ix2 (c0 j) k)) = V c main_v46 (ix2 (c0 (((cfg3.win 2).blk t).view.emb j)) k)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * k.val = k.val; omega
  · show V c main_arg5 (((cfg3.win 1).blk t).view.emb (ix2 k (c1 j))) = V c main_arg5 (ix2 k (c1 (((cfg3.win 2).blk t).view.emb j)))
    refine congrArg _ (funext fun a => Fin.ext ?_)
    match a with
    | ⟨0, _⟩ => show win3_1.index t (0 : Fin 2) * 32 + 1 * k.val = k.val; omega
    | ⟨1, _⟩ => show win3_1.index t (1 : Fin 2) * 32 + 1 * (j 1).val = win3_2.index t (1 : Fin 2) * 32 + 1 * (j 1).val; omega

/-- An index of the result array is in point `t`'s block iff each coordinate is in the block's range on its axis. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v47).slice (win3_2.rect t)).set ↔ _
  rw [View.set_slice_whole, Rect.mem_set_unit]
  exact Iff.rfl

/-- Row `p` is in the block of point `p / 10000`. -/
theorem cover3 (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : (i 0).val / 10000 < grid3.N := by rw [N_3]; omega
  refine ⟨⟨(i 0).val / 10000, hN⟩, flush3_2 _, ?_⟩
  obtain ⟨e0, e1, e2, e3, e4, e5⟩ := index3 ⟨(i 0).val / 10000, hN⟩
  rw [mem_blk3]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hN⟩ (1 : Fin 2) * 32 ≤ (i 1).val ∧ (i 1).val < win3_2.index ⟨(i 0).val / 10000, hN⟩ (1 : Fin 2) * 32 + 32
    rw [e5]
    omega

/-- After the call the result array is the whole-array function of the arrays the call found. -/
theorem final3 (c : Dev nD) : (dat3 V c).arrAt 2 cfg3.N = mm (V c main_v46) (V c main_arg5) :=
  (dat3 V c).arrAt_eq_of_cover 2 _ (fun t _ => flushed3 V c t) (cover3)

end Cert.KernelIdeal.Closed

end
-- ==== Proof.Call4.lean ====
/-
  Call 4 of the program, as one function of the arrays it finds.

  The call walks 170 points; point `t` reads rows `10000 t … 10000 t + 9999` of its first array and of its one-column second array, and writes
  the same rows of its result.  What the body stores is the first array with every row scaled by the factor the one-column second array holds for that row,
  of the block it loaded.  That layer is row-local, so block `t` of the whole-array function is what point `t` wrote;
  the 170 blocks tile the 1700000 rows, so after the call the result array is the whole-array function.
  Stated for any contents `V` of the buffers at the call's entry.
-/
import proofs.«110876_j70566312673876_2_alg».proof.Proof.Gen.KernelIdeal.Frame
import proofs.«110876_j70566312673876_2_alg».proof.Proof.LibRowScale
import Idealize.ShloMosaic.Lib.Pipeline.Value

set_option maxRecDepth 16384

noncomputable section

namespace Cert.KernelIdeal.Closed

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.RowScale

variable (V : (c : Dev nD) → (b : Ref sig .tc) → Buf (Elt Ideal) ((c : Thread nD τ).loc b))

theorem zero2_4 : (![0, 0] : Fin 2 → Nat) = fun _ => 0 := funext fun a => by fin_cases a <;> rfl

/-- The body's stored value: the casts are to the same shapes, the column is broadcast along the rows and multiplied in. -/
theorem pay4 (x0 : Vec Ideal S10000x32 .f32) (x1 : Vec Ideal S10000x1 .f32) : k4_pay1 (F := Ideal) x0 x1 = scaleRows x0 x1 := by
  unfold k4_pay1
  rw [shapeCast_self, shapeCast_self]
  exact vecScaleRows x0 x1 broadcasts_S10000x1_S10000x32

/-- The printed index maps over the grid: the row-blocked windows sit at block row `t`, column block 0. -/
theorem index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole-array function. -/
theorem flushed4 (c : Dev nD) (t : Fin cfg4.N) :
    (dat4 V c).flushed 2 t = ((cfg4.win 2).blk t).view.read (Elt Ideal) (scaleRows (V c main_v54) (V c main_v32)) := by
  show (cfg4.win 2).cut (grid4.coords t) ((dat4 V c).after 2 t) = _
  rw [after4_2]
  unfold out4_2
  rw [View.canon_unit_zero zero2_4]
  simp only [View.ld_unit_zero (S := S10000x32) zero2_4, View.ld_unit_zero (S := S10000x1) zero2_4]
  rw [pay4]
  obtain ⟨e0, e1, e2, e3, e4, e5⟩ := index4 t
  funext j
  show scaleRows (iblk4 V c 0 t) (iblk4 V c 1 t) j = scaleRows (V c main_v54) (V c main_v32) (((cfg4.win 2).blk t).view.emb j)
  refine scaleRows_at (V c main_v54) (V c main_v32) (iblk4 V c 0 t) (iblk4 V c 1 t) j (((cfg4.win 2).blk t).view.emb j) ?_ ?_
  · show V c main_v54 (((cfg4.win 0).blk t).view.emb j) = V c main_v54 (((cfg4.win 2).blk t).view.emb j)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 32 + 1 * (j 1).val = win4_2.index t (1 : Fin 2) * 32 + 1 * (j 1).val; omega
  · show V c main_v32 (((cfg4.win 1).blk t).view.emb (ix2 (c0 j) (0 : Fin 1))) = V c main_v32 (ix2 (c0 (((cfg4.win 2).blk t).view.emb j)) (0 : Fin 1))
    refine congrArg _ (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega

/-- An index of the result array is in point `t`'s block iff each coordinate is in the block's range on its axis. -/
theorem mem_blk4 (t : Fin cfg4.N) (i : S1700000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v55).slice (win4_2.rect t)).set ↔ _
  rw [View.set_slice_whole, Rect.mem_set_unit]
  exact Iff.rfl

/-- Row `p` is in the block of point `p / 10000`. -/
theorem cover4 (i : S1700000x32.Idx) : ∃ t : Fin cfg4.N, (cfg4.win 2).flush t = true ∧ i ∈ ((cfg4.win 2).blk t).view.set := by
  have hi0 : (i 0).val < 1700000 := (i 0).isLt
  have hi1 : (i 1).val < 32 := (i 1).isLt
  have hN : (i 0).val / 10000 < grid4.N := by rw [N_4]; omega
  refine ⟨⟨(i 0).val / 10000, hN⟩, flush4_2 _, ?_⟩
  obtain ⟨e0, e1, e2, e3, e4, e5⟩ := index4 ⟨(i 0).val / 10000, hN⟩
  rw [mem_blk4]
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, hN⟩ (1 : Fin 2) * 32 ≤ (i 1).val ∧ (i 1).val < win4_2.index ⟨(i 0).val / 10000, hN⟩ (1 : Fin 2) * 32 + 32
    rw [e5]
    omega

/-- After the call the result array is the whole-array function of the arrays the call found. -/
theorem final4 (c : Dev nD) : (dat4 V c).arrAt 2 cfg4.N = scaleRows (V c main_v54) (V c main_v32) :=
  (dat4 V c).arrAt_eq_of_cover 2 _ (fun t _ => flushed4 V c t) (cover4)

end Cert.KernelIdeal.Closed

end
-- ==== Proof.Call5.lean ====
/-
  Call 5 of the program, as one function of the arrays it finds.

  The call walks 10 points; point `t` reads rows `10000 t … 10000 t + 9999` of its first array and the whole of its second array, and writes
  the same rows of its result.  What the body stores is the first array plus the one-row second array on every row, rectified,
  of the block it loaded.  That layer is row-local, so block `t` of the whole-array function is what point `t` wrote;
  the 10 blocks tile the 100000 rows, so after the call the result array is the whole-array function.
  Stated for any contents `V` of the buffers at the call's entry.
-/
import proofs.«110876_j70566312673876_2_alg».proof.Proof.Gen.KernelIdeal.Frame
import proofs.«110876_j70566312673876_2_alg».proof.Proof.LibRowScale
import Idealize.ShloMosaic.Lib.Pipeline.Value

set_option maxRecDepth 16384

noncomputable section

namespace Cert.KernelIdeal.Closed

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.RowScale

variable (V : (c : Dev nD) → (b : Ref sig .tc) → Buf (Elt Ideal) ((c : Thread nD τ).loc b))

theorem zero2_5 : (![0, 0] : Fin 2 → Nat) = fun _ => 0 := funext fun a => by fin_cases a <;> rfl

/-- The body's stored value: the casts are to the same shapes, the row is broadcast to every row, added, and the
    maximum with zero taken. -/
theorem pay5 (x0 : Vec Ideal S10000x32 .f32) (x1 : Vec Ideal S1x32 .f32) : k5_pay1 (F := Ideal) x0 x1 = reluBias x0 x1 := by
  unfold k5_pay1
  rw [shapeCast_self, shapeCast_self]
  exact vecReluBias x0 x1 broadcasts_S1x32_S10000x32

/-- The printed index maps over the grid: the row-blocked windows sit at block row `t`, column block 0; the second
    window stays at its one block. -/
theorem index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole-array function. -/
theorem flushed5 (c : Dev nD) (t : Fin cfg5.N) :
    (dat5 V c).flushed 2 t = ((cfg5.win 2).blk t).view.read (Elt Ideal) (reluBias (V c main_v58) (V c main_v59)) := by
  show (cfg5.win 2).cut (grid5.coords t) ((dat5 V c).after 2 t) = _
  rw [after5_2]
  unfold out5_2
  rw [View.canon_unit_zero zero2_5]
  simp only [View.ld_unit_zero (S := S10000x32) zero2_5, View.ld_unit_zero (S := S1x32) zero2_5]
  rw [pay5]
  obtain ⟨e0, e1, e2, e3, e4, e5⟩ := index5 t
  funext j
  show reluBias (iblk5 V c 0 t) (iblk5 V c 1 t) j = reluBias (V c main_v58) (V c main_v59) (((cfg5.win 2).blk t).view.emb j)
  refine reluBias_at (V c main_v58) (V c main_v59) (iblk5 V c 0 t) (iblk5 V c 1 t) j (((cfg5.win 2).blk t).view.emb j) ?_ ?_
  · show V c main_v58 (((cfg5.win 0).blk t).view.emb j) = V c main_v58 (((cfg5.win 2).blk t).view.emb j)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 32 + 1 * (j 1).val = win5_2.index t (1 : Fin 2) * 32 + 1 * (j 1).val; omega
  · show V c main_v59 (((cfg5.win 1).blk t).view.emb (ix2 (0 : Fin 1) (c1 j))) = V c main_v59 (ix2 (0 : Fin 1) (c1 (((cfg5.win 2).blk t).view.emb j)))
    refine congrArg _ (funext fun a => Fin.ext ?_)
    match a with
    | ⟨0, _⟩ => show win5_1.index t (0 : Fin 2) * 1 + 1 * 0 = 0; omega
    | ⟨1, _⟩ => show win5_1.index t (1 : Fin 2) * 32 + 1 * (j 1).val = win5_2.index t (1 : Fin 2) * 32 + 1 * (j 1).val; omega

/-- An index of the result array is in point `t`'s block iff each coordinate is in the block's range on its axis. -/
theorem mem_blk5 (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v60).slice (win5_2.rect t)).set ↔ _
  rw [View.set_slice_whole, Rect.mem_set_unit]
  exact Iff.rfl

/-- Row `p` is in the block of point `p / 10000`. -/
theorem cover5 (i : S100000x32.Idx) : ∃ t : Fin cfg5.N, (cfg5.win 2).flush t = true ∧ i ∈ ((cfg5.win 2).blk t).view.set := by
  have hi0 : (i 0).val < 100000 := (i 0).isLt
  have hi1 : (i 1).val < 32 := (i 1).isLt
  have hN : (i 0).val / 10000 < grid5.N := by rw [N_5]; omega
  refine ⟨⟨(i 0).val / 10000, hN⟩, flush5_2 _, ?_⟩
  obtain ⟨e0, e1, e2, e3, e4, e5⟩ := index5 ⟨(i 0).val / 10000, hN⟩
  rw [mem_blk5]
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, hN⟩ (1 : Fin 2) * 32 ≤ (i 1).val ∧ (i 1).val < win5_2.index ⟨(i 0).val / 10000, hN⟩ (1 : Fin 2) * 32 + 32
    rw [e5]
    omega

/-- After the call the result array is the whole-array function of the arrays the call found. -/
theorem final5 (c : Dev nD) : (dat5 V c).arrAt 2 cfg5.N = reluBias (V c main_v58) (V c main_v59) :=
  (dat5 V c).arrAt_eq_of_cover 2 _ (fun t _ => flushed5 V c t) (cover5)

end Cert.KernelIdeal.Closed

end
-- ==== Proof.Stages.lean ====
/-
  What each buffer of the idealized kernel holds, stage by stage, in the reference's own terms.

  The host operations before the first call are the reference's own first operations, so the edge-index vectors and the
  normalisation factors they leave are the reference's.  From there the two programs go through the same layers in
  step: a call that multiplies row blocks by the weight leaves the matrix product, which is the reference's dot
  product; the gather that follows is the reference's gather of it; a call that scales row blocks by their factors
  leaves the reference's broadcast-and-multiply; the scatter-add that follows is the reference's; a call that adds the
  bias row and rectifies leaves the reference's bias-and-relu.  Twice over, which ends at the reference's result.
-/
import proofs.«110876_j70566312673876_2_alg».proof.Proof.Kept
import proofs.«110876_j70566312673876_2_alg».proof.Proof.Norm
import proofs.«110876_j70566312673876_2_alg».proof.Proof.Call0
import proofs.«110876_j70566312673876_2_alg».proof.Proof.Call1
import proofs.«110876_j70566312673876_2_alg».proof.Proof.Call2
import proofs.«110876_j70566312673876_2_alg».proof.Proof.Call3
import proofs.«110876_j70566312673876_2_alg».proof.Proof.Call4
import proofs.«110876_j70566312673876_2_alg».proof.Proof.Call5
import proofs.«110876_j70566312673876_2_alg».proof.Proof.RefLayers
import Idealize.ShloMosaic.Lib.StableHlo.Run

set_option maxRecDepth 16384

noncomputable section

namespace Cert.KernelIdeal.Stages

open Cert.KernelIdeal Cert.KernelIdeal.Gen Cert.KernelIdeal.Kept Cert.KernelIdeal.Closed Cert.KernelIdeal.Norm
open Idealize.ShloMosaic Idealize.ShloMosaic.TcCoe Idealize.ShloMosaic.StableHlo Idealize.SL.Sem
open Idealize.ShloMosaic.Pipeline (Dat Cfg Window)
open Cert.Dense Cert.RowScale
open Cert.ReferenceIdeal.Read

variable (m : (ℓ : Loc nD τ sig) → Buf (Elt Ideal) ℓ) (ρ : Dev nD → PrngReg) (c : Dev nD)

/-! ## The first layer -/

theorem dense1 : W4 m ρ c (Proc.devRef .tc main_v33) = mm (m ((c : Thread nD τ).loc main_arg0)) (m ((c : Thread nD τ).loc main_arg3)) :=
  (W4_arr m ρ c 2).trans ((final0 (V3 m ρ) c).trans (congrArg₂ mm (keep_arg0_3_0 m ρ c) (keep_arg3_3_0 m ρ c)))

theorem gathered1 : W5 m ρ c (Proc.devRef .tc main_v40) = val_main_v39 (F := Ideal) (m ((c : Thread nD τ).loc main_arg0)) (m ((c : Thread nD τ).loc main_arg1)) (m ((c : Thread nD τ).loc main_arg3)) := by
  show StableHlo.after hostOps1 (W4 m ρ c) (Proc.devRef .tc main_v40) = _
  after_results
  rw [dense1 m ρ c, keep_v5_4_3 m ρ c, src3 m ρ c]
  unfold val_main_v39
  rw [Cert.ReferenceIdeal.Layers.dense1]
  rfl

theorem scaled1 : W6 m ρ c (Proc.devRef .tc main_v41) = val_main_v42 (F := Ideal) (m ((c : Thread nD τ).loc main_arg0)) (m ((c : Thread nD τ).loc main_arg1)) (m ((c : Thread nD τ).loc main_arg2)) (m ((c : Thread nD τ).loc main_arg3)) :=
  (W6_arr m ρ c 2).trans ((final1 (V5 m ρ) c).trans ((congrArg₂ scaleRows (gathered1 m ρ c) ((keep_v32_5_3 m ρ c).trans (norm3 m ρ c))).trans
    (Cert.ReferenceIdeal.Layers.scaled1 (m ((c : Thread nD τ).loc main_arg0)) (m ((c : Thread nD τ).loc main_arg1)) (m ((c : Thread nD τ).loc main_arg2)) (m ((c : Thread nD τ).loc main_arg3))).symm))

theorem summed1 : W7 m ρ c (Proc.devRef .tc main_v44) = val_main_v45 (F := Ideal) (m ((c : Thread nD τ).loc main_arg0)) (m ((c : Thread nD τ).loc main_arg1)) (m ((c : Thread nD τ).loc main_arg2)) (m ((c : Thread nD τ).loc main_arg3)) := by
  show StableHlo.after hostOps2 (W6 m ρ c) (Proc.devRef .tc main_v44) = _
  after_results
  rw [scaled1 m ρ c, keep_v6_6_3 m ρ c, dst3 m ρ c]
  rfl

theorem bias1 : W7 m ρ c (Proc.devRef .tc main_v45) = row (m ((c : Thread nD τ).loc main_arg4)) := by
  show StableHlo.after hostOps2 (W6 m ρ c) (Proc.devRef .tc main_v45) = _
  after_results
  rw [keep_arg4_6_0 m ρ c]
  exact shapeCast_row (N := 32) _ _

theorem out1 : W8 m ρ c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 2).trans ((final2 (V7 m ρ) c).trans ((congrArg₂ reluBias (summed1 m ρ c) (bias1 m ρ c)).trans
    (Cert.ReferenceIdeal.Layers.out1 (m ((c : Thread nD τ).loc main_arg0)) (m ((c : Thread nD τ).loc main_arg1)) (m ((c : Thread nD τ).loc main_arg2)) (m ((c : Thread nD τ).loc main_arg3)) (m ((c : Thread nD τ).loc main_arg4))).symm))

/-! ## The second layer -/

theorem dense2 : W9 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((final3 (V8 m ρ) c).trans ((congrArg₂ mm (out1 m ρ c) (keep_arg5_8_0 m ρ c)).trans
    (Cert.ReferenceIdeal.Layers.dense2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm))

theorem gathered2 : W10 m ρ c (Proc.devRef .tc main_v54) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W9 m ρ c) (Proc.devRef .tc main_v54) = _
  after_results
  rw [dense2 m ρ c, keep_v5_9_4 m ρ c, keep_v5_4_3 m ρ c, src3 m ρ c]
  rfl

theorem scaled2 : W11 m ρ c (Proc.devRef .tc main_v55) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W11_arr m ρ c 2).trans ((final4 (V10 m ρ) c).trans ((congrArg₂ scaleRows (gathered2 m ρ c)
    ((keep_v32_10_5 m ρ c).trans ((keep_v32_5_3 m ρ c).trans (norm3 m ρ c)))).trans
    (Cert.ReferenceIdeal.Layers.scaled2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm))

theorem summed2 : W12 m ρ c (Proc.devRef .tc main_v58) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps5 (W11 m ρ c) (Proc.devRef .tc main_v58) = _
  after_results
  rw [scaled2 m ρ c, keep_v6_11_6 m ρ c, keep_v6_6_3 m ρ c, dst3 m ρ c]
  rfl

theorem bias2 : W12 m ρ c (Proc.devRef .tc main_v59) = row (m ((c : Thread nD τ).loc main_arg6)) := by
  show StableHlo.after hostOps5 (W11 m ρ c) (Proc.devRef .tc main_v59) = _
  after_results
  rw [keep_arg6_11_0 m ρ c]
  exact shapeCast_row (N := 32) _ _

/-- The kernel's result is the reference's. -/
theorem out2 : W13 m ρ c (Proc.devRef .tc main_v60) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W13_arr m ρ c 2).trans ((final5 (V12 m ρ) c).trans ((congrArg₂ reluBias (summed2 m ρ c) (bias2 m ρ c)).trans
    (Cert.ReferenceIdeal.Layers.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm))

end Cert.KernelIdeal.Stages

end
-- ==== Proof.lean ====
/-
  A two-layer graph convolution with symmetric normalisation, as Pallas calls among host operations, against its
  plain reference: on the extended reals the two programs compute one function.

  Both programs first build, from the edge list, the source and destination index of every edge and self-loop, the
  degree of every node (a scatter-add of the edge weights, self-loops weighing 2), its inverse square root where the
  degree is positive, and the factor `dinv[src] · w · dinv[dst]` of every edge — by the same host operations in the
  same order.  A layer then maps node features `H` to `relu (scatter-add over dst of (H W)[src] · factor, + b)`.
  The reference spells the layer with a dot product, a gather, two broadcasts and a product, a scatter-add, two
  broadcasts and a sum, and a maximum with zero.  The kernel spells `H W` as a call that multiplies 10000-row blocks
  by `W` (operands first rounded to bfloat16, which changes nothing on the extended reals, and accumulated from zero),
  the scaling as a call over 10000-row blocks of the gathered rows and of the factors reshaped to a column, and the
  bias and rectifier as a call over 10000-row blocks with the bias reshaped to a row; gather and scatter-add stay on
  the host, the same operations as the reference's.  Each call's result array is the whole-array layer (the layers
  are row-local and the blocks tile the rows), each whole-array layer is the reference's spelling of it, and the
  host operations in between are shared; so stage by stage the kernel's buffers hold the reference's values, down to
  the result.  No law used needs finiteness: the precondition is not opened.

  The three frames are the generated ones (the reference's is its run with the result dropped); nothing was
  rewritten by the idealization, so there is nothing to preserve.
-/
import proofs.«110876_j70566312673876_2_alg».proof.Defs
import proofs.«110876_j70566312673876_2_alg».proof.Proof.Gen.Kernel
import proofs.«110876_j70566312673876_2_alg».proof.Proof.Gen.Kernel.Skeleton
import proofs.«110876_j70566312673876_2_alg».proof.Proof.Gen.Kernel.Launch
import proofs.«110876_j70566312673876_2_alg».proof.Proof.Gen.Kernel.Points
import proofs.«110876_j70566312673876_2_alg».proof.Proof.Gen.Kernel.Frame
import proofs.«110876_j70566312673876_2_alg».proof.Proof.Gen.KernelIdeal
import proofs.«110876_j70566312673876_2_alg».proof.Proof.Gen.KernelIdeal.Skeleton
import proofs.«110876_j70566312673876_2_alg».proof.Proof.Gen.KernelIdeal.Launch
import proofs.«110876_j70566312673876_2_alg».proof.Proof.Gen.KernelIdeal.Points
import proofs.«110876_j70566312673876_2_alg».proof.Proof.Gen.KernelIdeal.Frame
import proofs.«110876_j70566312673876_2_alg».proof.Proof.Gen.ReferenceIdeal
import proofs.«110876_j70566312673876_2_alg».proof.Proof.Gen.Pre_finite_inputs
import proofs.«110876_j70566312673876_2_alg».proof.Proof.Gen.ReferenceIdeal.Run
import proofs.«110876_j70566312673876_2_alg».proof.Proof.Gen.ReferenceIdeal.Read
import proofs.«110876_j70566312673876_2_alg».proof.Proof.KernelRun
import proofs.«110876_j70566312673876_2_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.out2 m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v67_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
